-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S5000x256 : Shape := ⟨2, ![5000, 256]⟩
abbrev S5000x128 : Shape := ⟨2, ![5000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 53
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x40, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S1600000x1, .f32⟩
  | .hbm, ⟨45, _⟩ => ⟨S1600000x40, .f32⟩
  | .hbm, ⟨46, _⟩ => ⟨S1600000x40, .f32⟩
  | .hbm, ⟨47, _⟩ => ⟨S_, .f32⟩
  | .hbm, ⟨48, _⟩ => ⟨S100000x40, .f32⟩
  | .hbm, ⟨49, _⟩ => ⟨S1600000x1, .i32⟩
  | .hbm, ⟨50, _⟩ => ⟨S100000x40, .f32⟩
  | .hbm, ⟨51, _⟩ => ⟨S1x40, .f32⟩
  | .hbm, ⟨52, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x40, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x40, .f32⟩
  | .hbm, ⟨48, _⟩ => ⟨S1600000x1, .f32⟩
  | .hbm, ⟨49, _⟩ => ⟨S1600000x40, .f32⟩
  | .hbm, ⟨50, _⟩ => ⟨S1600000x40, .f32⟩
  | .hbm, ⟨51, _⟩ => ⟨S_, .f32⟩
  | .hbm, ⟨52, _⟩ => ⟨S100000x40, .f32⟩
  | .hbm, ⟨53, _⟩ => ⟨S1600000x1, .i32⟩
  | .hbm, ⟨54, _⟩ => ⟨S100000x40, .f32⟩
  | .hbm, ⟨55, _⟩ => ⟨S1x40, .f32⟩
  | .hbm, ⟨56, _⟩ => ⟨S100000x40, .f32⟩
  | .hbm, ⟨57, _⟩ => ⟨S100000x40, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x40, .f32⟩
  | .hbm, ⟨65, _⟩ => ⟨S100000x40, .f32⟩
  | .hbm, ⟨66, _⟩ => ⟨S100000x40, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x40, .f32⟩
  | .hbm, ⟨72, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KRun.lean ====
/-
  The idealized kernel's run, with the result buffer named.

  The program is four kernel regions among two stretches of host operations. Its buffers' contents at the six
  boundaries are the fold W0 … W6 of the generated frame: a host stretch applies its operations to the contents
  before it, a region replaces its arrays by what its write-backs leave. Every weakly fair execution ends with each
  unscoped buffer at W6 (`run_all`); in particular the result is W6's value at its buffer and the seven arguments
  are as launched (`run_named`).
-/
import proofs.«155495_j11278584119813_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at the result and at the arguments: the result holds the last boundary's contents of its
    buffer, each argument what it was launched with. -/
theorem run_named : θ_run defs (onTc (τ := τ) (main (F := F))) ⟨m, fun _ => 0, ρ⟩ (fun r => ∀ c : Dev nD,
      r.2.mem ((c.tc : Thread nD τ).loc main_v39) = V6 m ρ c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)
    (run_all m ρ)

end Cert.KernelIdeal.KRun

end
-- ==== Proof.Spec.lean ====
/-
  log_softmax of one row.

  For a row z of 40 extended reals, with M the fold of max over the row started from the value of the word of -∞,
  position q of the row's log_softmax is (z q - M) - log (sum over k of exp (z k - M)). Both programs compute
  exactly this expression at every entry of the result; nothing about it is proved beyond that.
-/
import Idealize.ShloMosaic.PureOps.Ideal

noncomputable section

namespace Cert.Spec

open Idealize.ShloMosaic
open scoped BigOperators

/-- log_softmax of a row of 40 extended reals, at position q. -/
def lsm (z : Fin 40 → EReal) (q : Fin 40) : EReal :=
  (z q - (Finset.univ : Finset (Fin 40)).fold max (Ideal.ofBits .f32 0xFF800000#32) z)
    - Ideal.log (∑ k : Fin 40, Ideal.exp (z k - (Finset.univ : Finset (Fin 40)).fold max (Ideal.ofBits .f32 0xFF800000#32) z))

end Cert.Spec

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibRowInDim.lean ====
/-
  Two host broadcasts around a unit row, read at an entry: a vector laid down as one row
  (`broadcast_in_dim` with dims [1], [b] to [1, b]) and one row stretched over a rows (dims [0, 1], [1, b] to [a, b]).
-/
import Idealize.ShloMosaic.Lib.Pipeline.Value
import Idealize.ShloMosaic.Lib.ValueIdx

namespace Cert.LibRowInDim

open Idealize.ShloMosaic Idealize.ShloMosaic.ValueIdx

variable {α : Type}

/-- A [b] array broadcast to [1, b] along dims [1] reads, at (u, k), the operand at k. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A [1, b] array broadcast to [a, b] along dims [0, 1] reads, at (p, k), the operand's one row at column k. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Cert.LibRowInDim
-- ==== Proof.LibColInDim.lean ====
/-
  Two host broadcasts around a unit column, read at an entry: a vector stood up as one column
  (`broadcast_in_dim` with dims [0], [a] to [a, 1]) and one column stretched over b columns (dims [0, 1], [a, 1] to [a, b]).
-/
import Idealize.ShloMosaic.Lib.Pipeline.Value
import Idealize.ShloMosaic.Lib.ValueIdx

namespace Cert.LibColInDim

open Idealize.ShloMosaic Idealize.ShloMosaic.ValueIdx

variable {α : Type}

/-- An [a] array broadcast to [a, 1] along dims [0] reads, at (p, u), the operand at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] array broadcast to [a, b] along dims [0, 1] reads, at (p, q), the operand's one column at row p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColInDim
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibHostRowMax.lean ====
/-
  The host's largest entry along the columns, read at a row.

  At the ideal instance a float is an extended real and a maximum is the exact fold of `max` in any order. For an
  `[a, b]` matrix, the host's `reduce` with a `maximum` body over axis 1, read at row `p`, is the fold of `max` from
  the initial value over the row's entries `(p, k)`: the rank-2 companion of the rank-3 form `hostMax_last3`, over the
  same index fact `lift_row`.
-/
import proofs.«155495_j11278584119813_1_alg».proof.Proof.LibRowMax

noncomputable section

namespace Cert.LibHostRowMax

open Idealize.ShloMosaic Idealize.ShloMosaic.ValueIdx

/-- The host's `reduce` with a `maximum` body along the columns of an `[a, b]` array, read at row `p`: the fold of
    `max` from the initial value over the row's entries. -/
theorem hostMax_row {a b : ℕ} {u : Shape} (x : FVec Ideal ⟨2, ![a, b]⟩ .f32) (init : FVec Ideal u .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) fun k => x (ix2 p k) := by
  have h : (⟨2, ![a, b]⟩ : Shape).Reduces [1] ⟨1, ![a]⟩ := ⟨h'.1, Nat.one_pos, h'.2⟩
  refine (Host.reduce_eq_fold_single (FloatOps.maximumf (F := Ideal) (φ := .f32)) x init h' h hu (ix1 p)).trans ?_
  exact congrArg (fun f => Finset.fold max (init (Shape.Idx.first hu)) f (Finset.univ : Finset (Fin b)))
    (funext fun k => congrArg x (Cert.LibRowMax.lift_row h p k))

end Cert.LibHostRowMax

end
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.RefStages.lean ====
/-
  The reference, stage by stage.

  The reference computes a two-layer graph convolution. With x the node features, (src, dst, ew) the weighted edges and
  W1, b1, W2, b2 the layers' parameters:
      h1  = relu (P (x · W1) + b1),     out = log_softmax (P (h1 · W2) + b2),
  where P, the propagation along the edges, sends a matrix h to the matrix whose row n is the sum over the edges e
  with dst e = n of ew e times row (src e) of h. Each stage is named here as a function of the stage before it, in the
  reference's own operations, and the stages a kernel region replaces are read at an entry (p, q):
    * a dense layer is the sum over k of left (p, k) times right (k, q);
    * the first activation is max (h (p, q) + b q) 0;
    * the output stage is z (p, q) - M p - log (sum over k of exp (z (p, k) - M p)), z = h + b, M p the largest entry
      of row p of z.
  P itself is never opened: both programs apply the same operations there.
-/
import proofs.«155495_j11278584119813_1_alg».proof.Proof.Gen.ReferenceIdeal
import proofs.«155495_j11278584119813_1_alg».proof.Proof.Spec
import proofs.«155495_j11278584119813_1_alg».proof.Proof.LibMatmulAt
import proofs.«155495_j11278584119813_1_alg».proof.Proof.LibRowInDim
import proofs.«155495_j11278584119813_1_alg».proof.Proof.LibColInDim
import proofs.«155495_j11278584119813_1_alg».proof.Proof.LibHostRowMax
import proofs.«155495_j11278584119813_1_alg».proof.Proof.LibRowSum
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Idealize.ShloMosaic Idealize.ShloMosaic.TcCoe Idealize.SL.Sem Idealize.ShloMosaic.StableHlo
open Idealize.ShloMosaic.ValueIdx
open scoped BigOperators
open Cert.Spec

/-! ## The stages, in the reference's operations -/

/-- The source node of each edge, a negative index counted from the end. -/
def srcIdx (ei : IVec S2x1600000 32) : IVec S1600000x1 32 :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- The target node of each edge. -/
def dstIdx (ei : IVec S2x1600000 32) : IVec S1600000x1 32 :=
  broadcastInDim S1600000x1 ![0] bcast_S1600000_S1600000x1_0 (shapeCast _ (extractStridedSlice S1x1600000 ![1, 0] ei slices_S2x1600000_S1x1600000_1_0) shapeCasts_S1x1600000_S1600000)

/-- Propagation of a 128-column matrix along the weighted edges. -/
def prop128 (h : FVec Ideal S100000x128 .f32) (ei : IVec S2x1600000 32) (ew : FVec Ideal S1600000 .f32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (dstIdx ei) (mulf (Host.gather gather_S100000x128_S1600000x1_S1600000x128_1_0_n_n_0_1_1128 h (srcIdx ei)) (broadcastInDim S1600000x128 ![0, 1] bcast_S1600000x1_S1600000x128_0_1 (broadcastInDim S1600000x1 ![0] bcast_S1600000_S1600000x1_0 ew)))

/-- Propagation of a 40-column matrix along the weighted edges. -/
def prop40 (h : FVec Ideal S100000x40 .f32) (ei : IVec S2x1600000 32) (ew : FVec Ideal S1600000 .f32) : FVec Ideal S100000x40 .f32 :=
  Host.scatterAdd (F := Ideal) scatter_S100000x40_S1600000x1_S1600000x40_1_0_0_1 (broadcastInDim S100000x40 ![] bcast_S_S100000x40 (constant (F := Ideal) S_ .f32 0x00000000#32)) (dstIdx ei) (mulf (Host.gather gather_S100000x40_S1600000x1_S1600000x40_1_0_n_n_0_1_140 h (srcIdx ei)) (broadcastInDim S1600000x40 ![0, 1] bcast_S1600000x1_S1600000x40_0_1 (broadcastInDim S1600000x1 ![0] bcast_S1600000_S1600000x1_0 ew)))

/-- The first dense layer, x · W1. -/
def dense1 (x : FVec Ideal S100000x256 .f32) (w : FVec Ideal S256x128 .f32) : FVec Ideal S100000x128 .f32 :=
  Host.dotGeneral (F := Ideal) dot_S100000x256_S256x128_S100000x128_1_0_0_1_n_n none x w

/-- The second dense layer, h · W2. -/
def dense2 (h : FVec Ideal S100000x128 .f32) (w : FVec Ideal S128x40 .f32) : FVec Ideal S100000x40 .f32 :=
  Host.dotGeneral (F := Ideal) dot_S100000x128_S128x40_S100000x40_1_0_0_1_n_n none h w

/-- The first activation, relu (h + b). -/
def act1 (h : FVec Ideal S100000x128 .f32) (b : FVec Ideal S128 .f32) : FVec Ideal S100000x128 .f32 :=
  maximumf (addf h (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- The logits, h + b. -/
def biased (h : FVec Ideal S100000x40 .f32) (b : FVec Ideal S40 .f32) : FVec Ideal S100000x40 .f32 :=
  addf h (broadcastInDim S100000x40 ![0, 1] bcast_S1x40_S100000x40_0_1 (broadcastInDim S1x40 ![1] bcast_S40_S1x40_1 b))

/-- The largest logit of each row. -/
def rowMax (z : FVec Ideal S100000x40 .f32) : FVec Ideal S100000 .f32 :=
  maximumf (broadcastInDim S100000 ![] bcast_S_S100000 (constant (F := Ideal) S_ .f32 0xFF800000#32)) (Host.reduce (FloatOps.maximumf (F := Ideal) (φ := .f32)) z (constant (F := Ideal) S_ .f32 0xFF800000#32) reducesTo_S100000x40_S100000_d1 h_S_)

/-- The logits less their row's largest. -/
def shifted (z : FVec Ideal S100000x40 .f32) : FVec Ideal S100000x40 .f32 :=
  subf z (broadcastInDim S100000x40 ![0, 1] bcast_S100000x1_S100000x40_0_1 (broadcastInDim S100000x1 ![0] bcast_S100000_S100000x1_0 (rowMax z)))

/-- log_softmax along the rows. -/
def logSoftmax (z : FVec Ideal S100000x40 .f32) : FVec Ideal S100000x40 .f32 :=
  subf (shifted z) (broadcastInDim S100000x40 ![0, 1] bcast_S100000x1_S100000x40_0_1 (Host.log (F := Ideal) (broadcastInDim S100000x1 ![0] bcast_S100000_S100000x1_0 (Host.reduceAdd (F := Ideal) (Host.exp (F := Ideal) (shifted z)) (constant (F := Ideal) S_ .f32 0x00000000#32) reducesTo_S100000x40_S100000_d1 h_S_))))

/-- The output stage, log_softmax (h + b). -/
def outStage (h : FVec Ideal S100000x40 .f32) (b : FVec Ideal S40 .f32) : FVec Ideal S100000x40 .f32 := logSoftmax (biased h b)

/-- The whole reference as the composition of its stages. -/
def whole (x : FVec Ideal S100000x256 .f32) (ei : IVec S2x1600000 32) (ew : FVec Ideal S1600000 .f32) (w1 : FVec Ideal S256x128 .f32) (b1 : FVec Ideal S128 .f32)
    (w2 : FVec Ideal S128x40 .f32) (b2 : FVec Ideal S40 .f32) : FVec Ideal S100000x40 .f32 :=
  outStage (prop40 (dense2 (act1 (prop128 (dense1 x w1) ei ew) b1) w2) ei ew) b2

/-! ## The dense layers at an entry -/

theorem lhs1_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem lhs1_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
theorem rhs1_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
theorem rhs1_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- Entry (p, q) of x · W1 is the sum over k of x (p, k) times W1 (k, q). -/
theorem dense1_at (x : FVec Ideal S100000x256 .f32) (w : FVec Ideal S256x128 .f32) (p : Fin 100000) (q : Fin 128) :
    dense1 x w (ix2 p q) = ∑ k : Fin 256, x (ix2 p k) * w (ix2 k q) := by
  unfold dense1
  exact MatmulAt.dotGeneral_ix2 dot_S100000x256_S256x128_S100000x128_1_0_0_1_n_n rfl rfl lhs1_0 lhs1_1 rhs1_0 rhs1_1 none x w p q

theorem lhs2_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem lhs2_1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
theorem rhs2_0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
theorem rhs2_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- Entry (p, q) of h · W2 is the sum over k of h (p, k) times W2 (k, q). -/
theorem dense2_at (h : FVec Ideal S100000x128 .f32) (w : FVec Ideal S128x40 .f32) (p : Fin 100000) (q : Fin 40) :
    dense2 h w (ix2 p q) = ∑ k : Fin 128, h (ix2 p k) * w (ix2 k q) := by
  unfold dense2
  exact MatmulAt.dotGeneral_ix2 dot_S100000x128_S128x40_S100000x40_1_0_0_1_n_n rfl rfl lhs2_0 lhs2_1 rhs2_0 rhs2_1 none h w p q

/-! ## Pointwise operations and constants at an index -/

theorem addf_at {S : Shape} (x y : FVec Ideal S .f32) (i : S.Idx) : addf x y i = x i + y i := rfl
theorem subf_at {S : Shape} (x y : FVec Ideal S .f32) (i : S.Idx) : subf x y i = x i - y i := rfl
theorem maximumf_at {S : Shape} (x y : FVec Ideal S .f32) (i : S.Idx) : maximumf x y i = max (x i) (y i) := rfl
theorem hostExp_at {S : Shape} (x : FVec Ideal S .f32) (i : S.Idx) : Host.exp (F := Ideal) x i = Ideal.exp (x i) := rfl
theorem hostLog_at {S : Shape} (x : FVec Ideal S .f32) (i : S.Idx) : Host.log (F := Ideal) x i = Ideal.log (x i) := rfl
theorem const_at {S : Shape} (w : BitVec 32) (i : S.Idx) : constant (F := Ideal) S .f32 w i = Ideal.ofBits .f32 w := rfl

/-! ## The bias rows and the scalar constants at an entry -/

/-- A scalar broadcast to any shape reads the scalar everywhere. -/
theorem splat_at {S : Shape} (hb : (S_ : Shape).BroadcastsInDim S ![]) (y : S_.Idx → EReal) (i : S.Idx) :
    broadcastInDim S ![] hb y i = y ix0 :=
  broadcastInDim_apply _ hb y i ix0 (fun a => a.elim0)

/-- The bias of the first layer, laid over every row, read at (p, q). -/
theorem bias1_at (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) :=
  (Cert.LibRowInDim.bcast_1b_ab_apply _ bcast_S1x128_S100000x128_0_1 p q).trans (Cert.LibRowInDim.bcast_b_1b_apply b bcast_S128_S1x128_1 0 q)

/-- The bias of the second layer, laid over every row, read at (p, q). -/
theorem bias2_at (b : FVec Ideal S40 .f32) (p : Fin 100000) (q : Fin 40) :
    broadcastInDim S100000x40 ![0, 1] bcast_S1x40_S100000x40_0_1 (broadcastInDim S1x40 ![1] bcast_S40_S1x40_1 b) (ix2 p q) = b (ix1 q) :=
  (Cert.LibRowInDim.bcast_1b_ab_apply _ bcast_S1x40_S100000x40_0_1 p q).trans (Cert.LibRowInDim.bcast_b_1b_apply b bcast_S40_S1x40_1 0 q)

/-- A per-row value stood up as a column and laid over the 40 columns, read at (p, q). -/
theorem col_at (v : FVec Ideal S100000 .f32) (p : Fin 100000) (q : Fin 40) :
    broadcastInDim S100000x40 ![0, 1] bcast_S100000x1_S100000x40_0_1 (broadcastInDim S100000x1 ![0] bcast_S100000_S100000x1_0 v) (ix2 p q) = v (ix1 p) :=
  (Cert.LibColInDim.bcast_a1_ab_apply _ bcast_S100000x1_S100000x40_0_1 p q).trans (Cert.LibColInDim.bcast_a_a1_apply v bcast_S100000_S100000x1_0 p 0)

/-! ## The first activation at an entry -/

/-- Entry (p, q) of relu (h + b). -/
theorem act1_at (h : FVec Ideal S100000x128 .f32) (b : FVec Ideal S128 .f32) (p : Fin 100000) (q : Fin 128) :
    act1 h b (ix2 p q) = max (h (ix2 p q) + b (ix1 q)) (Ideal.ofBits .f32 0x00000000#32) := by
  unfold act1
  rw [maximumf_at, addf_at, bias1_at, splat_at, const_at]

/-! ## The output stage at an entry -/

/-- Row p of the logits. -/
def zrow (h : FVec Ideal S100000x40 .f32) (b : FVec Ideal S40 .f32) (p : Fin 100000) (k : Fin 40) : EReal := h (ix2 p k) + b (ix1 k)

theorem biased_at (h : FVec Ideal S100000x40 .f32) (b : FVec Ideal S40 .f32) (p : Fin 100000) (q : Fin 40) :
    biased h b (ix2 p q) = zrow h b p q := by
  unfold biased zrow
  rw [addf_at, bias2_at]

/-- The largest entry of row p: the maximum started from -∞, and again against -∞, is the fold of max over the row. -/
theorem rowMax_at (z : FVec Ideal S100000x40 .f32) (p : Fin 100000) :
    rowMax z (ix1 p) = (Finset.univ : Finset (Fin 40)).fold max (Ideal.ofBits .f32 0xFF800000#32) fun k => z (ix2 p k) := by
  unfold rowMax
  rw [maximumf_at, splat_at, Cert.LibHostRowMax.hostMax_row z _ reducesTo_S100000x40_S100000_d1 h_S_ p, const_at, const_at]
  exact max_eq_right ((Finset.le_fold_max _).mpr (Or.inl le_rfl))

theorem shifted_at (z : FVec Ideal S100000x40 .f32) (p : Fin 100000) (q : Fin 40) :
    shifted z (ix2 p q) = z (ix2 p q) - (Finset.univ : Finset (Fin 40)).fold max (Ideal.ofBits .f32 0xFF800000#32) fun k => z (ix2 p k) := by
  unfold shifted
  rw [subf_at, col_at, rowMax_at]

/-- Entry (p, q) of log_softmax z is `lsm` of row p of z at q. -/
theorem logSoftmax_at (z : FVec Ideal S100000x40 .f32) (p : Fin 100000) (q : Fin 40) :
    logSoftmax z (ix2 p q) = lsm (fun k => z (ix2 p k)) q := by
  unfold logSoftmax
  rw [subf_at, Cert.LibColInDim.bcast_a1_ab_apply _ bcast_S100000x1_S100000x40_0_1 p q, hostLog_at,
    Cert.LibColInDim.bcast_a_a1_apply _ bcast_S100000_S100000x1_0 p 0,
    Cert.LibRowSum.hostSum_row _ _ reducesTo_S100000x40_S100000_d1 h_S_ p, const_at, Ideal.ofBits_zero_f32, zero_add, shifted_at]
  unfold lsm
  refine congrArg (fun s => _ - Ideal.log s) (Finset.sum_congr rfl fun k _ => ?_)
  rw [hostExp_at, shifted_at]

/-- Entry (p, q) of the output stage. -/
theorem outStage_at (h : FVec Ideal S100000x40 .f32) (b : FVec Ideal S40 .f32) (p : Fin 100000) (q : Fin 40) :
    outStage h b (ix2 p q) = lsm (zrow h b p) q := by
  unfold outStage
  rw [logSoftmax_at]
  exact congrArg (fun f => lsm f q) (funext fun k => biased_at h b p k)

end Cert.ReferenceIdeal.Stage

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Pay.lean ====
/-
  What each kernel body stores, read at one entry of its block, at the ideal instance.

  Each of the four bodies loads its input blocks whole, computes one value and stores it whole. With X the block of
  5000 rows and B the second operand's block:
    * the two matrix-product bodies store, at (r, q), the sum over k of X (r, k) times B (k, q) (rounding to the
      16-bit format on the way in is the identity here, and the accumulator starts at zero);
    * the bias-and-relu body stores max (X (r, q) + B (0, q)) 0;
    * the bias-and-log_softmax body stores the row's log_softmax of the row X (r, ·) + B (0, ·) at position q.
-/
import proofs.«155495_j11278584119813_1_alg».proof.Proof.Gen.KernelIdeal.Skeleton
import proofs.«155495_j11278584119813_1_alg».proof.Proof.Spec
import proofs.«155495_j11278584119813_1_alg».proof.Proof.LibMatmulAt
import proofs.«155495_j11278584119813_1_alg».proof.Proof.LibRowMax
import proofs.«155495_j11278584119813_1_alg».proof.Proof.LibRowSum
import proofs.«155495_j11278584119813_1_alg».proof.Proof.LibColBroadcast
import proofs.«155495_j11278584119813_1_alg».proof.Proof.LibColumnCast
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators
open Cert.Spec

/-! ## The matrix-product bodies -/

theorem d0l0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d0l1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem d0r0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem d0r1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first product's block at (r, q): the sum over k of X (r, k) times W1 (k, q). -/
theorem pay0_at (x : FVec Ideal S5000x256 .f32) (w : FVec Ideal S256x128 .f32) (r : Fin 5000) (q : Fin 128) :
    k0_pay1 (F := Ideal) x w (ix2 r q) = ∑ k : Fin 256, x (ix2 r k) * w (ix2 k q) := by
  unfold k0_pay1
  exact MatmulAt.matmul_zero_ix2 dot_S5000x256_S256x128_S5000x128_1_0_0_1_n_n rfl rfl d0l0 d0l1 d0r0 d0r1 none
    (truncf .bf16 x bitsLt_bf16_f32) (truncf .bf16 w bitsLt_bf16_f32) r q

theorem d2l0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem d2l1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem d2r0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem d2r1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The second product's block at (r, q): the sum over k of X (r, k) times W2 (k, q). -/
theorem pay2_at (x : FVec Ideal S5000x128 .f32) (w : FVec Ideal S128x40 .f32) (r : Fin 5000) (q : Fin 40) :
    k2_pay1 (F := Ideal) x w (ix2 r q) = ∑ k : Fin 128, x (ix2 r k) * w (ix2 k q) := by
  unfold k2_pay1
  refine (MatmulAt.matmul_zero_ix2 dot_S5000x128_S128x40_S5000x40_1_0_0_1_n_n rfl rfl d2l0 d2l1 d2r0 d2r1 none
    (truncf .bf16 (shapeCast S5000x128 x shapeCasts_S5000x128_S5000x128) bitsLt_bf16_f32) (truncf .bf16 w bitsLt_bf16_f32) r q).trans ?_
  rw [shapeCast_self]
  rfl

/-! ## The bias-and-relu body -/

/-- The block at (r, q): max (X (r, q) + B (0, q)) 0. -/
theorem pay1_at (b : FVec Ideal S1x128 .f32) (x : FVec Ideal S5000x128 .f32) (r : Fin 5000) (q : Fin 128) :
    k1_pay1 (F := Ideal) b x (ix2 r q) = max (x (ix2 r q) + b (ix2 (0 : Fin 1) q)) (Ideal.ofBits .f32 0x00000000#32) := by
  unfold k1_pay1
  show max ((shapeCast S5000x128 x shapeCasts_S5000x128_S5000x128) (ix2 r q)
      + broadcastTo S5000x128 (shapeCast S1x128 (shapeCast S1x128 b shapeCasts_S1x128_S1x128) shapeCasts_S1x128_S1x128) broadcasts_S1x128_S5000x128 (ix2 r q))
      (Ideal.ofBits .f32 0x00000000#32) = _
  rw [shapeCast_self, shapeCast_self, shapeCast_self, broadcastTo_1b_ab_apply]

/-! ## The bias-and-log_softmax body, in four steps -/

/-- The logits of the block: X + B laid over the rows. -/
def k3z (b : FVec Ideal S1x40 .f32) (x : FVec Ideal S5000x40 .f32) : FVec Ideal S5000x40 .f32 :=
  addf (shapeCast S5000x40 x shapeCasts_S5000x40_S5000x40)
    (broadcastTo S5000x40 (shapeCast S1x40 (shapeCast S1x40 b shapeCasts_S1x40_S1x40) shapeCasts_S1x40_S1x40) broadcasts_S1x40_S5000x40)

/-- Each row's largest logit. -/
def k3m (z : FVec Ideal S5000x40 .f32) : FVec Ideal S5000 .f32 :=
  multiReduction .maximumf [1] S5000 z 0xFF800000#32 reduces_S5000x40_S5000 (.inl rfl) rfl

/-- The logits less their row's largest. -/
def k3s (z : FVec Ideal S5000x40 .f32) : FVec Ideal S5000x40 .f32 :=
  subf z (broadcastTo S5000x40 (shapeCast S5000x1 (k3m z) shapeCasts_S5000_S5000x1) broadcasts_S5000x1_S5000x40)

/-- The shifted logits less the logarithm of their row's sum of exponentials. -/
def k3out (z : FVec Ideal S5000x40 .f32) : FVec Ideal S5000x40 .f32 :=
  subf (k3s z) (broadcastTo S5000x40 (log (shapeCast S5000x1 (multiReduction .add [1] S5000 (exp (k3s z)) 0x00000000#32 reduces_S5000x40_S5000 (.inl rfl) rfl) shapeCasts_S5000_S5000x1)) broadcasts_S5000x1_S5000x40)

/-- The body's stored value is those four steps composed. -/
theorem k3_eq (b : FVec Ideal S1x40 .f32) (x : FVec Ideal S5000x40 .f32) : k3_pay1 (F := Ideal) b x = k3out (k3z b x) := rfl

theorem k3z_at (b : FVec Ideal S1x40 .f32) (x : FVec Ideal S5000x40 .f32) (r : Fin 5000) (q : Fin 40) :
    k3z b x (ix2 r q) = x (ix2 r q) + b (ix2 (0 : Fin 1) q) := by
  show (shapeCast S5000x40 x shapeCasts_S5000x40_S5000x40) (ix2 r q)
      + broadcastTo S5000x40 (shapeCast S1x40 (shapeCast S1x40 b shapeCasts_S1x40_S1x40) shapeCasts_S1x40_S1x40) broadcasts_S1x40_S5000x40 (ix2 r q) = _
  rw [shapeCast_self, shapeCast_self, shapeCast_self, broadcastTo_1b_ab_apply]

theorem k3m_at (z : FVec Ideal S5000x40 .f32) (r : Fin 5000) :
    k3m z (ix1 r) = (Finset.univ : Finset (Fin 40)).fold max (Ideal.ofBits .f32 0xFF800000#32) fun k => z (ix2 r k) :=
  Cert.LibRowMax.laneMax_row z reduces_S5000x40_S5000 (.inl rfl) rfl r

theorem k3s_at (z : FVec Ideal S5000x40 .f32) (r : Fin 5000) (q : Fin 40) :
    k3s z (ix2 r q) = z (ix2 r q) - (Finset.univ : Finset (Fin 40)).fold max (Ideal.ofBits .f32 0xFF800000#32) fun k => z (ix2 r k) := by
  show z (ix2 r q) - broadcastTo S5000x40 (shapeCast S5000x1 (k3m z) shapeCasts_S5000_S5000x1) broadcasts_S5000x1_S5000x40 (ix2 r q) = _
  rw [Cert.LibColBroadcast.broadcastTo_a1_ab_apply _ broadcasts_S5000x1_S5000x40 r q,
    Cert.LibColumnCast.shapeCast_a_a1_apply _ shapeCasts_S5000_S5000x1 r 0, k3m_at]

theorem k3out_at (z : FVec Ideal S5000x40 .f32) (r : Fin 5000) (q : Fin 40) :
    k3out z (ix2 r q) = lsm (fun k => z (ix2 r k)) q := by
  show k3s z (ix2 r q) - broadcastTo S5000x40 (log (shapeCast S5000x1 (multiReduction .add [1] S5000 (exp (k3s z)) 0x00000000#32 reduces_S5000x40_S5000 (.inl rfl) rfl) shapeCasts_S5000_S5000x1)) broadcasts_S5000x1_S5000x40 (ix2 r q) = _
  rw [Cert.LibColBroadcast.broadcastTo_a1_ab_apply _ broadcasts_S5000x1_S5000x40 r q]
  show k3s z (ix2 r q) - Ideal.log (shapeCast S5000x1 (multiReduction .add [1] S5000 (exp (k3s z)) 0x00000000#32 reduces_S5000x40_S5000 (.inl rfl) rfl) shapeCasts_S5000_S5000x1 (ix2 r (0 : Fin 1))) = _
  rw [Cert.LibColumnCast.shapeCast_a_a1_apply _ shapeCasts_S5000_S5000x1 r 0,
    Cert.LibRowSum.laneSum_row (exp (k3s z)) reduces_S5000x40_S5000 (.inl rfl) rfl r, k3s_at]
  unfold lsm
  refine congrArg (fun s => _ - Ideal.log s) (Finset.sum_congr rfl fun k _ => ?_)
  show Ideal.exp (k3s z (ix2 r k)) = _
  rw [k3s_at]

/-- The block at (r, q): the log_softmax of the row X (r, ·) + B (0, ·) at position q. -/
theorem pay3_at (b : FVec Ideal S1x40 .f32) (x : FVec Ideal S5000x40 .f32) (r : Fin 5000) (q : Fin 40) :
    k3_pay1 (F := Ideal) b x (ix2 r q) = lsm (fun k => x (ix2 r k) + b (ix2 (0 : Fin 1) k)) q := by
  rw [k3_eq, k3out_at]
  exact congrArg (fun f => lsm f q) (funext fun k => k3z_at b x r k)

end Cert.KernelIdeal.Pay

end
-- ==== Proof.Reg0.lean ====
/-
  Region 0: the first dense layer, row block by row block.

  The grid has 20 points. Point t stages rows 5000·t … 5000·t + 4999 of the left operand, the whole right operand,
  and writes back rows 5000·t … 5000·t + 4999 of the result. Entry (r, q) of what it writes is the sum over k of
  left (5000·t + r, k) times right (k, q): the same entry of the whole product. The twenty row blocks cover the
  100000 rows, so the result array ends as the whole product x · W1 of the arrays the region was entered with.
-/
import proofs.«155495_j11278584119813_1_alg».proof.Proof.Gen.KernelIdeal.Frame
import proofs.«155495_j11278584119813_1_alg».proof.Proof.Pay
import proofs.«155495_j11278584119813_1_alg».proof.Proof.RefStages

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators
open Cert.ReferenceIdeal.Stage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand and the result move down one row block per point, the right
    operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product. -/
theorem flushed_eq (c : Dev nD) (t : Fin cfg0.N) :
    (dat0 V c).flushed 2 t = ((cfg0.win 2).blk t).view.read (Elt Ideal) (dense1 (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e00, e01, e10, e11, e20, e21⟩ := idx_facts t
  have ht : t.val < 20 := t.isLt
  funext j
  obtain ⟨r, q, rfl⟩ : ∃ (r : Fin 5000) (q : Fin 128), j = ix2 r q := ⟨j 0, j 1, eq_ix2 j⟩
  have hr : r.val < 5000 := r.isLt
  have e2 : ((cfg0.win 2).blk t).view.emb (ix2 r q) = ix2 (⟨t.val * 5000 + r.val, by omega⟩ : Fin 100000) q := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * q.val = q.val; omega
  have e0 : ∀ k : Fin 256, ((cfg0.win 0).blk t).view.emb (ix2 r k) = ix2 (⟨t.val * 5000 + r.val, by omega⟩ : Fin 100000) k := fun k => by
    funext a; apply Fin.ext
    match a with
    | ⟨0, _⟩ => show win0_0.index t (0 : Fin 2) * 5000 + 1 * r.val = t.val * 5000 + r.val; omega
    | ⟨1, _⟩ => show win0_0.index t (1 : Fin 2) * 256 + 1 * k.val = k.val; omega
  have e1 : ∀ k : Fin 256, ((cfg0.win 1).blk t).view.emb (ix2 k q) = ix2 k q := fun k => by
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  refine (Pay.pay0_at (iblk0 V c 0 t) (iblk0 V c 1 t) r q).trans ?_
  show _ = dense1 (V c main_arg0) (V c main_arg3) (((cfg0.win 2).blk t).view.emb (ix2 r q))
  rw [e2, dense1_at]
  refine Finset.sum_congr rfl fun k _ => congrArg₂ (· * ·) ?_ ?_
  · show V c main_arg0 (((cfg0.win 0).blk t).view.emb (ix2 r k)) = _
    rw [e0 k]
  · show V c main_arg3 (((cfg0.win 1).blk t).view.emb (ix2 k q)) = _
    rw [e1 k]

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row of the result lies in the row block of the point (row / 5000). -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk]
  obtain ⟨-, -, -, -, e20, e21⟩ := idx_facts ⟨(i 0).val / 5000, by show (i 0).val / 5000 < 20; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e21]; omega

/-- THE RESULT ARRAY after the region: the whole product of the arrays the region was entered with. -/
theorem final (c : Dev nD) : (dat0 V c).arrAt 2 cfg0.N = dense1 (V c main_arg0) (V c main_arg3) :=
  (dat0 V c).arrAt_eq_of_cover 2 (dense1 (V c main_arg0) (V c main_arg3)) (fun t _ => flushed_eq V c t) cover

end Cert.KernelIdeal.Reg0

end
-- ==== Proof.Reg1.lean ====
/-
  Region 1: bias and relu, row block by row block.

  Point t stages rows 5000·t … 5000·t + 4999 of the propagated matrix and the bias as one row of 128, and writes back
  the same rows of the result; entry (r, q) of what it writes is max (h (5000·t + r, q) + bias (0, q)) 0. When the
  bias row holds a vector b, that is entry (5000·t + r, q) of relu (h + b). The twenty row blocks cover the 100000
  rows, so the result array ends as relu (h + b) of the arrays the region was entered with.
-/
import proofs.«155495_j11278584119813_1_alg».proof.Proof.Gen.KernelIdeal.Frame
import proofs.«155495_j11278584119813_1_alg».proof.Proof.Pay
import proofs.«155495_j11278584119813_1_alg».proof.Proof.RefStages

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators
open Cert.ReferenceIdeal.Stage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked operand and the result move down one row block per point, the
    other operand stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of relu (h + b), b the vector the bias row holds. -/
theorem flushed_eq (c : Dev nD) (b : FVec Ideal Cert.ReferenceIdeal.S128 .f32)
    (hb : ∀ q : Fin 128, V c main_v18 (ix2 (0 : Fin 1) q) = b (ix1 q)) (t : Fin cfg1.N) :
    (dat1 V c).flushed 2 t = ((cfg1.win 2).blk t).view.read (Elt Ideal) (act1 (V c main_v17) b) := by
  show (cfg1.win 2).cut (grid1.coords t) ((dat1 V c).after 2 t) = _
  rw [after1_2]
  unfold out1_2
  rw [View.canon_unit_zero hz]
  simp only [View.ld_unit_zero (S := S1x128) hz, View.ld_unit_zero (S := S5000x128) hz]
  obtain ⟨e00, e01, e10, e11, e20, e21⟩ := idx_facts t
  have ht : t.val < 20 := t.isLt
  funext j
  obtain ⟨r, q, rfl⟩ : ∃ (r : Fin 5000) (q : Fin 128), j = ix2 r q := ⟨j 0, j 1, eq_ix2 j⟩
  have hr : r.val < 5000 := r.isLt
  have e2 : ((cfg1.win 2).blk t).view.emb (ix2 r q) = ix2 (⟨t.val * 5000 + r.val, by omega⟩ : Fin 100000) q := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  have e0 : ((cfg1.win 0).blk t).view.emb (ix2 r q) = ix2 (⟨t.val * 5000 + r.val, by omega⟩ : Fin 100000) q := by
    funext a; apply Fin.ext
    match a with
    | ⟨0, _⟩ => show win1_0.index t (0 : Fin 2) * 5000 + 1 * r.val = t.val * 5000 + r.val; omega
    | ⟨1, _⟩ => show win1_0.index t (1 : Fin 2) * 128 + 1 * q.val = q.val; omega
  have e1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  refine (Pay.pay1_at (iblk1 V c 1 t) (iblk1 V c 0 t) r q).trans ?_
  show _ = act1 (V c main_v17) b (((cfg1.win 2).blk t).view.emb (ix2 r q))
  rw [e2, act1_at]
  refine congrArg₂ max (congrArg₂ (· + ·) ?_ ?_) rfl
  · show V c main_v17 (((cfg1.win 0).blk t).view.emb (ix2 r q)) = _
    rw [e0]
  · show V c main_v18 (((cfg1.win 1).blk t).view.emb (ix2 (0 : Fin 1) q)) = _
    rw [e1, hb]

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v19).slice (win1_2.rect t)).set ↔ _
  rw [View.set_slice_whole, Rect.mem_set_unit]
  exact Iff.rfl

/-- Every row of the result lies in the row block of the point (row / 5000). -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 5000, by show (i 0).val / 5000 < 20; omega⟩, flush1_2 _, ?_⟩
  rw [mem_blk]
  obtain ⟨-, -, -, -, e20, e21⟩ := idx_facts ⟨(i 0).val / 5000, by show (i 0).val / 5000 < 20; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e21]; omega

/-- THE RESULT ARRAY after the region: relu (h + b) of the arrays the region was entered with. -/
theorem final (c : Dev nD) (b : FVec Ideal Cert.ReferenceIdeal.S128 .f32)
    (hb : ∀ q : Fin 128, V c main_v18 (ix2 (0 : Fin 1) q) = b (ix1 q)) :
    (dat1 V c).arrAt 2 cfg1.N = act1 (V c main_v17) b :=
  (dat1 V c).arrAt_eq_of_cover 2 (act1 (V c main_v17) b) (fun t _ => flushed_eq V c b hb t) cover

end Cert.KernelIdeal.Reg1

end
-- ==== Proof.Reg2.lean ====
/-
  Region 2: the second dense layer, row block by row block.

  Point t stages rows 5000·t … 5000·t + 4999 of the left operand, the whole right operand, and writes back the same rows
  of the result; entry (r, q) of what it writes is the sum over k of left (5000·t + r, k) times right (k, q), the same
  entry of the whole product. The twenty row blocks cover the 100000 rows, so the result array ends as the whole
  product of the arrays the region was entered with.
-/
import proofs.«155495_j11278584119813_1_alg».proof.Proof.Gen.KernelIdeal.Frame
import proofs.«155495_j11278584119813_1_alg».proof.Proof.Pay
import proofs.«155495_j11278584119813_1_alg».proof.Proof.RefStages

set_option maxRecDepth 16384

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators
open Cert.ReferenceIdeal.Stage

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked operand and the result move down one row block per point, the
    other operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the whole product. -/
theorem flushed_eq (c : Dev nD) (t : Fin cfg2.N) :
    (dat2 V c).flushed 2 t = ((cfg2.win 2).blk t).view.read (Elt Ideal) (dense2 (V c main_v19) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  obtain ⟨e00, e01, e10, e11, e20, e21⟩ := idx_facts t
  have ht : t.val < 20 := t.isLt
  funext j
  obtain ⟨r, q, rfl⟩ : ∃ (r : Fin 5000) (q : Fin 40), j = ix2 r q := ⟨j 0, j 1, eq_ix2 j⟩
  have hr : r.val < 5000 := r.isLt
  have e2 : ((cfg2.win 2).blk t).view.emb (ix2 r q) = ix2 (⟨t.val * 5000 + r.val, by omega⟩ : Fin 100000) q := by
    funext a; apply Fin.ext
    match a with
    | ⟨0, _⟩ => show win2_2.index t (0 : Fin 2) * 5000 + 1 * r.val = t.val * 5000 + r.val; omega
    | ⟨1, _⟩ => show win2_2.index t (1 : Fin 2) * 40 + 1 * q.val = q.val; omega
  have e0 : ∀ k : Fin 128, ((cfg2.win 0).blk t).view.emb (ix2 r k) = ix2 (⟨t.val * 5000 + r.val, by omega⟩ : Fin 100000) k := fun k => by
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  have e1 : ∀ k : Fin 128, ((cfg2.win 1).blk t).view.emb (ix2 k q) = ix2 k q := fun k => by
    funext a; apply Fin.ext
    match a with
    | ⟨0, _⟩ => show win2_1.index t (0 : Fin 2) * 128 + 1 * k.val = k.val; omega
    | ⟨1, _⟩ => show win2_1.index t (1 : Fin 2) * 40 + 1 * q.val = q.val; omega
  refine (Pay.pay2_at (iblk2 V c 0 t) (iblk2 V c 1 t) r q).trans ?_
  show _ = dense2 (V c main_v19) (V c main_arg5) (((cfg2.win 2).blk t).view.emb (ix2 r q))
  rw [e2, dense2_at]
  refine Finset.sum_congr rfl fun k _ => congrArg₂ (· * ·) ?_ ?_
  · show V c main_v19 (((cfg2.win 0).blk t).view.emb (ix2 r k)) = _
    rw [e0 k]
  · show V c main_arg5 (((cfg2.win 1).blk t).view.emb (ix2 k q)) = _
    rw [e1 k]

/-- An index of the result array is in point t's block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v20).slice (win2_2.rect t)).set ↔ _
  rw [View.set_slice_whole, Rect.mem_set_unit]
  exact Iff.rfl

/-- Every row of the result lies in the row block of the point (row / 5000). -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  refine ⟨⟨(i 0).val / 5000, by show (i 0).val / 5000 < 20; omega⟩, flush2_2 _, ?_⟩
  rw [mem_blk]
  obtain ⟨-, -, -, -, e20, e21⟩ := idx_facts ⟨(i 0).val / 5000, by show (i 0).val / 5000 < 20; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 40 ≤ (i 1).val ∧ (i 1).val < win2_2.index _ (1 : Fin 2) * 40 + 40
    rw [e21]; omega

/-- THE RESULT ARRAY after the region: the whole product of the arrays the region was entered with. -/
theorem final (c : Dev nD) : (dat2 V c).arrAt 2 cfg2.N = dense2 (V c main_v19) (V c main_arg5) :=
  (dat2 V c).arrAt_eq_of_cover 2 (dense2 (V c main_v19) (V c main_arg5)) (fun t _ => flushed_eq V c t) cover

end Cert.KernelIdeal.Reg2

end
-- ==== Proof.Reg3.lean ====
/-
  Region 3: bias and log_softmax, row block by row block.

  Point t stages rows 5000·t … 5000·t + 4999 of the propagated matrix and the bias as one row of 40, and writes back
  the same rows of the result; entry (r, q) of what it writes is the log_softmax, at position q, of the row
  h (5000·t + r, ·) + bias (0, ·). A row's log_softmax reads that row only, so when the bias row holds a vector b
  this is entry (5000·t + r, q) of log_softmax (h + b). The twenty row blocks cover the 100000 rows, so the result
  array ends as log_softmax (h + b) of the arrays the region was entered with.
-/
import proofs.«155495_j11278584119813_1_alg».proof.Proof.Gen.KernelIdeal.Frame
import proofs.«155495_j11278584119813_1_alg».proof.Proof.Pay
import proofs.«155495_j11278584119813_1_alg».proof.Proof.RefStages

set_option maxRecDepth 16384

noncomputable section

namespace Cert.KernelIdeal.Reg3

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators
open Cert.ReferenceIdeal.Stage

variable (V : (c : Dev nD) → (b : Ref sig .tc) → Buf (Elt Ideal) ((c : Thread nD τ).loc b))

theorem hz : (![0, 0] : Fin 2 → Nat) = fun _ => 0 := funext fun a => by fin_cases a <;> rfl

open Cert.Spec

/-- The printed index maps over the grid: the row-blocked operand and the result move down one row block per point, the
    other operand stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK is block t of log_softmax (h + b), b the vector the bias row holds. -/
theorem flushed_eq (c : Dev nD) (b : FVec Ideal Cert.ReferenceIdeal.S40 .f32)
    (hb : ∀ q : Fin 40, V c main_v38 (ix2 (0 : Fin 1) q) = b (ix1 q)) (t : Fin cfg3.N) :
    (dat3 V c).flushed 2 t = ((cfg3.win 2).blk t).view.read (Elt Ideal) (outStage (V c main_v37) b) := by
  show (cfg3.win 2).cut (grid3.coords t) ((dat3 V c).after 2 t) = _
  rw [after3_2]
  unfold out3_2
  rw [View.canon_unit_zero hz]
  simp only [View.ld_unit_zero (S := S1x40) hz, View.ld_unit_zero (S := S5000x40) hz]
  obtain ⟨e00, e01, e10, e11, e20, e21⟩ := idx_facts t
  have ht : t.val < 20 := t.isLt
  funext j
  obtain ⟨r, q, rfl⟩ : ∃ (r : Fin 5000) (q : Fin 40), j = ix2 r q := ⟨j 0, j 1, eq_ix2 j⟩
  have hr : r.val < 5000 := r.isLt
  have e2 : ((cfg3.win 2).blk t).view.emb (ix2 r q) = ix2 (⟨t.val * 5000 + r.val, by omega⟩ : Fin 100000) q := by
    funext a; apply Fin.ext
    match a with
    | ⟨0, _⟩ => show win3_2.index t (0 : Fin 2) * 5000 + 1 * r.val = t.val * 5000 + r.val; omega
    | ⟨1, _⟩ => show win3_2.index t (1 : Fin 2) * 40 + 1 * q.val = q.val; omega
  have e0 : ∀ k : Fin 40, ((cfg3.win 0).blk t).view.emb (ix2 r k) = ix2 (⟨t.val * 5000 + r.val, by omega⟩ : Fin 100000) k := fun k => by
    funext a; apply Fin.ext
    match a with
    | ⟨0, _⟩ => show win3_0.index t (0 : Fin 2) * 5000 + 1 * r.val = t.val * 5000 + r.val; omega
    | ⟨1, _⟩ => show win3_0.index t (1 : Fin 2) * 40 + 1 * k.val = k.val; omega
  have e1 : ∀ k : Fin 40, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 40 + 1 * k.val = k.val; omega
  refine (Pay.pay3_at (iblk3 V c 1 t) (iblk3 V c 0 t) r q).trans ?_
  show _ = outStage (V c main_v37) b (((cfg3.win 2).blk t).view.emb (ix2 r q))
  rw [e2, outStage_at]
  refine congrArg (fun f => lsm f q) (funext fun k => ?_)
  unfold zrow
  refine congrArg₂ (· + ·) ?_ ?_
  · show V c main_v37 (((cfg3.win 0).blk t).view.emb (ix2 r k)) = _
    rw [e0 k]
  · show V c main_v38 (((cfg3.win 1).blk t).view.emb (ix2 (0 : Fin 1) k)) = _
    rw [e1 k, hb]

/-- An index of the result array is in point t's block iff each coordinate is in the block's range on its axis. -/
theorem mem_blk (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v39).slice (win3_2.rect t)).set ↔ _
  rw [View.set_slice_whole, Rect.mem_set_unit]
  exact Iff.rfl

/-- Every row of the result lies in the row block of the point (row / 5000). -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  refine ⟨⟨(i 0).val / 5000, by show (i 0).val / 5000 < 20; omega⟩, flush3_2 _, ?_⟩
  rw [mem_blk]
  obtain ⟨-, -, -, -, e20, e21⟩ := idx_facts ⟨(i 0).val / 5000, by show (i 0).val / 5000 < 20; omega⟩
  intro a
  match a with
  | ⟨0, _⟩ =>
    show win3_2.index _ (0 : Fin 2) * 5000 ≤ (i 0).val ∧ (i 0).val < win3_2.index _ (0 : Fin 2) * 5000 + 5000
    rw [e20]; show (i 0).val / 5000 * 5000 ≤ (i 0).val ∧ (i 0).val < (i 0).val / 5000 * 5000 + 5000; omega
  | ⟨1, _⟩ =>
    show win3_2.index _ (1 : Fin 2) * 40 ≤ (i 1).val ∧ (i 1).val < win3_2.index _ (1 : Fin 2) * 40 + 40
    rw [e21]; omega

/-- THE RESULT ARRAY after the region: log_softmax (h + b) of the arrays the region was entered with. -/
theorem final (c : Dev nD) (b : FVec Ideal Cert.ReferenceIdeal.S40 .f32)
    (hb : ∀ q : Fin 40, V c main_v38 (ix2 (0 : Fin 1) q) = b (ix1 q)) :
    (dat3 V c).arrAt 2 cfg3.N = outStage (V c main_v37) b :=
  (dat3 V c).arrAt_eq_of_cover 2 (outStage (V c main_v37) b) (fun t _ => flushed_eq V c b hb t) cover

end Cert.KernelIdeal.Reg3

end
-- ==== Proof.KValue.lean ====
/-
  The idealized kernel's result, stage by stage.

  The buffers' contents at the six boundaries of the kernel's program are a fold: a host stretch applies its
  operations, a region replaces its result array by what its row blocks wrote. Read from the end:
    * the result is region 3's array: the output stage of the second propagation and the bias b2;
    * the second propagation is host stretch 3 applied to region 2's array, the second dense layer of region 1's
      array and W2;
    * region 1's array is the first activation of the first propagation and the bias b1;
    * the first propagation is host stretch 1 applied to region 0's array, the first dense layer of x and W1.
  The two propagations are the reference's own operations on the same edges and weights (no host stretch and no
  region writes an argument). So the result is the reference's six stages composed over the arguments as launched.
-/
import proofs.«155495_j11278584119813_1_alg».proof.Proof.Gen.KernelIdeal.Frame
import proofs.«155495_j11278584119813_1_alg».proof.Proof.RefStages
import proofs.«155495_j11278584119813_1_alg».proof.Proof.Reg0
import proofs.«155495_j11278584119813_1_alg».proof.Proof.Reg1
import proofs.«155495_j11278584119813_1_alg».proof.Proof.Reg2
import proofs.«155495_j11278584119813_1_alg».proof.Proof.Reg3
import Idealize.ShloMosaic.Lib.StableHlo.Run
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx Idealize.ShloMosaic.StableHlo
open Cert.ReferenceIdeal.Stage

/-! ## The two propagations, in the kernel program's operations -/

/-- The source node of each edge, a negative index counted from the end. -/
def srcIdxK (ei : IVec S2x1600000 32) : IVec S1600000x1 32 :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- The target node of each edge. -/
def dstIdxK (ei : IVec S2x1600000 32) : IVec S1600000x1 32 :=
  broadcastInDim S1600000x1 ![0] bcast_S1600000_S1600000x1_0 (shapeCast _ (extractStridedSlice S1x1600000 ![1, 0] ei slices_S2x1600000_S1x1600000_1_0) shapeCasts_S1x1600000_S1600000)

/-- Propagation of a 128-column matrix along the weighted edges. -/
def propK128 (h : FVec Ideal S100000x128 .f32) (ei : IVec S2x1600000 32) (ew : FVec Ideal S1600000 .f32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (dstIdxK ei) (mulf (Host.gather gather_S100000x128_S1600000x1_S1600000x128_1_0_n_n_0_1_1128 h (srcIdxK ei)) (broadcastInDim S1600000x128 ![0, 1] bcast_S1600000x1_S1600000x128_0_1 (broadcastInDim S1600000x1 ![0] bcast_S1600000_S1600000x1_0 ew)))

/-- Propagation of a 40-column matrix along the weighted edges. -/
def propK40 (h : FVec Ideal S100000x40 .f32) (ei : IVec S2x1600000 32) (ew : FVec Ideal S1600000 .f32) : FVec Ideal S100000x40 .f32 :=
  Host.scatterAdd (F := Ideal) scatter_S100000x40_S1600000x1_S1600000x40_1_0_0_1 (broadcastInDim S100000x40 ![] bcast_S_S100000x40 (constant (F := Ideal) S_ .f32 0x00000000#32)) (dstIdxK ei) (mulf (Host.gather gather_S100000x40_S1600000x1_S1600000x40_1_0_n_n_0_1_140 h (srcIdxK ei)) (broadcastInDim S1600000x40 ![0, 1] bcast_S1600000x1_S1600000x40_0_1 (broadcastInDim S1600000x1 ![0] bcast_S1600000_S1600000x1_0 ew)))

/-- They are the reference's propagations: the same operations with the same dimension numbers. -/
theorem propK128_eq (h : FVec Ideal S100000x128 .f32) (ei : IVec S2x1600000 32) (ew : FVec Ideal S1600000 .f32) :
    propK128 h ei ew = prop128 h ei ew := rfl
theorem propK40_eq (h : FVec Ideal S100000x40 .f32) (ei : IVec S2x1600000 32) (ew : FVec Ideal S1600000 .f32) :
    propK40 h ei ew = prop40 h ei ew := rfl

/-! ## The host stretches, from any contents -/

section Stretches

variable (W : Valuation τ sig (Elt Ideal))

/-- Host stretch 1 leaves the first propagation of region 0's array. -/
theorem stretch1_v17 : after (hostOps1 (F := Ideal)) W (Proc.devRef .tc main_v17) = propK128 (W (Proc.devRef .tc main_v0)) (W (Proc.devRef .tc main_arg1)) (W (Proc.devRef .tc main_arg2)) := by
  after_results_simp <;> rfl
/-- … and the first bias laid down as one row. -/
theorem stretch1_v18 : after (hostOps1 (F := Ideal)) W (Proc.devRef .tc main_v18) = shapeCast S1x128 (W (Proc.devRef .tc main_arg4)) shapeCasts_S128_S1x128 := by
  after_results_simp <;> rfl
/-- Host stretch 3 leaves the second propagation of region 2's array. -/
theorem stretch3_v37 : after (hostOps3 (F := Ideal)) W (Proc.devRef .tc main_v37) = propK40 (W (Proc.devRef .tc main_v20)) (W (Proc.devRef .tc main_arg1)) (W (Proc.devRef .tc main_arg2)) := by
  after_results_simp <;> rfl
/-- … and the second bias laid down as one row. -/
theorem stretch3_v38 : after (hostOps3 (F := Ideal)) W (Proc.devRef .tc main_v38) = shapeCast S1x40 (W (Proc.devRef .tc main_arg6)) shapeCasts_S40_S1x40 := by
  after_results_simp <;> rfl

end Stretches

/-! ## The arguments at the boundaries -/

variable (m : (ℓ : Loc nD τ sig) → Buf (Elt Ideal) ℓ) (ρ : Dev nD → PrngReg) (c : Dev nD)

theorem W1_arg1 : W1 m ρ c (Proc.devRef .tc main_arg1) = m ((c : Thread nD τ).loc main_arg1) :=
  W1_of_ne m ρ c main_arg1 (by decide)
theorem W1_arg2 : W1 m ρ c (Proc.devRef .tc main_arg2) = m ((c : Thread nD τ).loc main_arg2) :=
  W1_of_ne m ρ c main_arg2 (by decide)
theorem W1_arg4 : W1 m ρ c (Proc.devRef .tc main_arg4) = m ((c : Thread nD τ).loc main_arg4) :=
  W1_of_ne m ρ c main_arg4 (by decide)
theorem W1_arg5 : W1 m ρ c (Proc.devRef .tc main_arg5) = m ((c : Thread nD τ).loc main_arg5) :=
  W1_of_ne m ρ c main_arg5 (by decide)
theorem W1_arg6 : W1 m ρ c (Proc.devRef .tc main_arg6) = m ((c : Thread nD τ).loc main_arg6) :=
  W1_of_ne m ρ c main_arg6 (by decide)
theorem W2_arg1 : W2 m ρ c (Proc.devRef .tc main_arg1) = m ((c : Thread nD τ).loc main_arg1) :=
  (StableHlo.after_of_forall_not_mem _ _ (List.forall_iff_forall_mem.mp (by
      simp only [hostOps1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W1_arg1 m ρ c)
theorem W2_arg2 : W2 m ρ c (Proc.devRef .tc main_arg2) = m ((c : Thread nD τ).loc main_arg2) :=
  (StableHlo.after_of_forall_not_mem _ _ (List.forall_iff_forall_mem.mp (by
      simp only [hostOps1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W1_arg2 m ρ c)
theorem W2_arg5 : W2 m ρ c (Proc.devRef .tc main_arg5) = m ((c : Thread nD τ).loc main_arg5) :=
  (StableHlo.after_of_forall_not_mem _ _ (List.forall_iff_forall_mem.mp (by
      simp only [hostOps1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W1_arg5 m ρ c)
theorem W2_arg6 : W2 m ρ c (Proc.devRef .tc main_arg6) = m ((c : Thread nD τ).loc main_arg6) :=
  (StableHlo.after_of_forall_not_mem _ _ (List.forall_iff_forall_mem.mp (by
      simp only [hostOps1, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans (W1_arg6 m ρ c)
theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg5 : W3 m ρ c (Proc.devRef .tc main_arg5) = m ((c : Thread nD τ).loc main_arg5) :=
  (W3_of_ne m ρ c main_arg5 (by decide)).trans (W2_arg5 m ρ c)
theorem W3_arg6 : W3 m ρ c (Proc.devRef .tc main_arg6) = m ((c : Thread nD τ).loc main_arg6) :=
  (W3_of_ne m ρ c main_arg6 (by decide)).trans (W2_arg6 m ρ c)
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg6 : W4 m ρ c (Proc.devRef .tc main_arg6) = m ((c : Thread nD τ).loc main_arg6) :=
  (W4_of_ne m ρ c main_arg6 (by decide)).trans (W3_arg6 m ρ c)

/-! ## The stages -/

/-- Region 0's array: the first dense layer. -/
theorem W1_v0 : W1 m ρ c (Proc.devRef .tc main_v0) = dense1 (m ((c : Thread nD τ).loc main_arg0)) (m ((c : Thread nD τ).loc main_arg3)) :=
  (W1_arr m ρ c 2).trans (Reg0.final (V0 m ρ) c)

/-- After host stretch 1: the first propagation. -/
theorem W2_v17 : W2 m ρ c (Proc.devRef .tc main_v17) = prop128 (dense1 (m ((c : Thread nD τ).loc main_arg0)) (m ((c : Thread nD τ).loc main_arg3))) (m ((c : Thread nD τ).loc main_arg1)) (m ((c : Thread nD τ).loc main_arg2)) := by
  show after (hostOps1 (F := Ideal)) (W1 m ρ c) (Proc.devRef .tc main_v17) = _
  rw [stretch1_v17, W1_v0, W1_arg1, W1_arg2, propK128_eq]

/-- After host stretch 1: the first bias as a row. -/
theorem W2_v18 (q : Fin 128) : W2 m ρ c (Proc.devRef .tc main_v18) (ix2 (0 : Fin 1) q) = m ((c : Thread nD τ).loc main_arg4) (ix1 q) := by
  show after (hostOps1 (F := Ideal)) (W1 m ρ c) (Proc.devRef .tc main_v18) (ix2 (0 : Fin 1) q) = _
  rw [stretch1_v18, W1_arg4]
  exact shapeCast_a_1a_apply _ shapeCasts_S128_S1x128 0 q

/-- Region 1's array: the first activation. -/
theorem W3_v19 : W3 m ρ c (Proc.devRef .tc main_v19) = act1 (prop128 (dense1 (m ((c : Thread nD τ).loc main_arg0)) (m ((c : Thread nD τ).loc main_arg3))) (m ((c : Thread nD τ).loc main_arg1)) (m ((c : Thread nD τ).loc main_arg2))) (m ((c : Thread nD τ).loc main_arg4)) :=
  (W3_arr m ρ c 2).trans ((Reg1.final (V2 m ρ) c (m ((c : Thread nD τ).loc main_arg4)) (W2_v18 m ρ c)).trans (congrArg (fun h => act1 h _) (W2_v17 m ρ c)))

/-- Region 2's array: the second dense layer. -/
theorem W4_v20 : W4 m ρ c (Proc.devRef .tc main_v20) = dense2 (act1 (prop128 (dense1 (m ((c : Thread nD τ).loc main_arg0)) (m ((c : Thread nD τ).loc main_arg3))) (m ((c : Thread nD τ).loc main_arg1)) (m ((c : Thread nD τ).loc main_arg2))) (m ((c : Thread nD τ).loc main_arg4))) (m ((c : Thread nD τ).loc main_arg5)) :=
  (W4_arr m ρ c 2).trans ((Reg2.final (V3 m ρ) c).trans (by
    show dense2 (W3 m ρ c (Proc.devRef .tc main_v19)) (W3 m ρ c (Proc.devRef .tc main_arg5)) = _
    rw [W3_v19, W3_arg5]))

/-- After host stretch 3: the second propagation. -/
theorem W5_v37 : W5 m ρ c (Proc.devRef .tc main_v37) = prop40 (dense2 (act1 (prop128 (dense1 (m ((c : Thread nD τ).loc main_arg0)) (m ((c : Thread nD τ).loc main_arg3))) (m ((c : Thread nD τ).loc main_arg1)) (m ((c : Thread nD τ).loc main_arg2))) (m ((c : Thread nD τ).loc main_arg4))) (m ((c : Thread nD τ).loc main_arg5))) (m ((c : Thread nD τ).loc main_arg1)) (m ((c : Thread nD τ).loc main_arg2)) := by
  show after (hostOps3 (F := Ideal)) (W4 m ρ c) (Proc.devRef .tc main_v37) = _
  rw [stretch3_v37, W4_v20, W4_arg1, W4_arg2, propK40_eq]

/-- After host stretch 3: the second bias as a row. -/
theorem W5_v38 (q : Fin 40) : W5 m ρ c (Proc.devRef .tc main_v38) (ix2 (0 : Fin 1) q) = m ((c : Thread nD τ).loc main_arg6) (ix1 q) := by
  show after (hostOps3 (F := Ideal)) (W4 m ρ c) (Proc.devRef .tc main_v38) (ix2 (0 : Fin 1) q) = _
  rw [stretch3_v38, W4_arg6]
  exact shapeCast_a_1a_apply _ shapeCasts_S40_S1x40 0 q

/-- THE RESULT: the reference's six stages composed over the arguments as launched. -/
theorem result : V6 m ρ c main_v39 = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W6_arr m ρ c 2).trans ((Reg3.final (V5 m ρ) c (m ((c : Thread nD τ).loc main_arg6)) (W5_v38 m ρ c)).trans (congrArg (fun h => outStage h _) (W5_v37 m ρ c)))

end Cert.KernelIdeal.KValue

end
-- ==== Proof.LibCallCasts.lean ====
/-
  The casts an inlined function call leaves around its values cancel.

  An operation of an inlined function call reads and writes its buffers through typed references: a value is carried
  to the buffer's own type when written (`toBuf`) and back when read (`ofBuf`), each a cast along the reference's
  type equation. So the fold of a line of such operations leaves one `ofBuf (toBuf v)` around every operand that
  another operation of the call produced. The two casts run along an equation and its inverse, so the pair is the
  identity; rewriting with that leaves the operations' plain composition.
-/
import Idealize.ShloMosaic.Lib.StableHlo

namespace Cert.LibCallCasts

open Idealize.ShloMosaic Idealize.ShloMosaic.StableHlo

variable {sig : RefSig} {Val : EltTy → Type}

/-- Contents carried to a buffer's type and back are the contents. -/
theorem ofBuf_toBuf {T : BufTy} (x : TRef sig T) (v : T.Contents Val) : x.ofBuf (x.toBuf v) = v := by
  unfold TRef.ofBuf TRef.toBuf
  simp only [cast_cast, cast_eq]

end Cert.LibCallCasts
-- ==== Proof.RefRun.lean ====
/-
  The reference's run, stage by stage.

  The reference is a straight line of 66 host operations. Cut after each stage's last operation, the line is six
  stretches: the first dense layer; the first propagation; bias and relu; the second dense layer; the second
  propagation; bias and log_softmax (this last one cut again in four: the logits, each row's largest, the shift, the
  logarithm of the sum of exponentials). The buffers' contents after a line is the fold of its operations' results, and the
  fold of a concatenation is the fold of the second part over the fold of the first (the library's `after_append`). Each stretch,
  from ANY contents W, leaves its stage's function of the contents it reads in its last buffer (`res_c1 … res_c6d`)
  and leaves alone the arguments later stretches read (`keep_…`). Composed: the result buffer ends at `Stage.whole` of
  the arguments as launched, and every argument ends as launched (`run`).
-/
import proofs.«155495_j11278584119813_1_alg».proof.Proof.RefRunOps
import proofs.«155495_j11278584119813_1_alg».proof.Proof.RefStages
import proofs.«155495_j11278584119813_1_alg».proof.Proof.LibCallCasts
import Idealize.ShloMosaic.Lib.Pipeline.Frame
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stage Cert.LibCallCasts

/-! ## The six stretches -/

section Chunks

variable {F : FTy → Type} [FloatOps F]

/-- The first dense layer. -/
abbrev c1 : List (HloOp τ sig (Elt F)) :=
  [ binary main_arg0 main_arg3 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]
/-- The first propagation along the edges. -/
abbrev c2 : List (HloOp τ sig (Elt F)) :=
  [ unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v0 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v12 (broadcastInDim S1600000x1 ![0] bcast_S1600000_S1600000x1_0 : (⟨S1600000, .f32⟩ : BufTy).Contents (Elt F) → (⟨S1600000x1, .f32⟩ : BufTy).Contents (Elt F)),
    unary main_v12 main_v13 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v13 main_v14 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v15 (broadcastInDim S100000x128 ![] bcast_S_S100000x128 : (⟨S_, .f32⟩ : BufTy).Contents (Elt F) → (⟨S100000x128, .f32⟩ : BufTy).Contents (Elt F)),
    unary main_v4 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- Bias and relu. -/
abbrev c3 : List (HloOp τ sig (Elt F)) :=
  [ unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v17 main_v19 main_v20 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v20) (TRef.of (T := ⟨S100000x128, .f32⟩) main_call0_v0) (TRef.of (T := ⟨S100000x128, .f32⟩) main_v21) maximumf ]
/-- The second dense layer. -/
abbrev c4 : List (HloOp τ sig (Elt F)) :=
  [ binary main_v21 main_arg5 main_v22 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]
/-- The second propagation along the edges. -/
abbrev c5 : List (HloOp τ sig (Elt F)) :=
  [ unary main_arg1 main_v23 ((extractStridedSlice S1x1600000 ![0, 0] · slices_S2x1600000_S1x1600000_0_0) : (⟨S2x1600000, .i32⟩ : BufTy).Contents (Elt F) → (⟨S1x1600000, .i32⟩ : BufTy).Contents (Elt F)),
    reshape main_v23 main_v24 rfl shapeCasts_S1x1600000_S1600000,
    unary main_arg1 main_v25 ((extractStridedSlice S1x1600000 ![1, 0] · slices_S2x1600000_S1x1600000_1_0) : (⟨S2x1600000, .i32⟩ : BufTy).Contents (Elt F) → (⟨S1x1600000, .i32⟩ : BufTy).Contents (Elt F)),
    reshape main_v25 main_v26 rfl shapeCasts_S1x1600000_S1600000,
    nullary main_c_1 (constantI S_ 32 0#32),
    unary main_c_1 main_v27 (broadcastInDim S1600000 ![] bcast_S_S1600000 : (⟨S_, .i32⟩ : BufTy).Contents (Elt F) → (⟨S1600000, .i32⟩ : BufTy).Contents (Elt F)),
    binary main_v24 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v29 (broadcastInDim S1600000 ![] bcast_S_S1600000 : (⟨S_, .i32⟩ : BufTy).Contents (Elt F) → (⟨S1600000, .i32⟩ : BufTy).Contents (Elt F)),
    binary main_v24 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v24 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v22 main_v32 main_v33 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_arg2 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x40 ![0, 1] bcast_S1600000x1_S1600000x40_0_1 : (⟨S1600000x1, .f32⟩ : BufTy).Contents (Elt F) → (⟨S1600000x40, .f32⟩ : BufTy).Contents (Elt F)),
    binary main_v33 main_v35 main_v36 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v37 (broadcastInDim S100000x40 ![] bcast_S_S100000x40 : (⟨S_, .f32⟩ : BufTy).Contents (Elt F) → (⟨S100000x40, .f32⟩ : BufTy).Contents (Elt F)),
    unary main_v26 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)) ]
/-- The logits: the second propagation plus the bias. -/
abbrev c6a : List (HloOp τ sig (Elt F)) :=
  [ unary main_arg6 main_v40 (broadcastInDim S1x40 ![1] bcast_S40_S1x40_1 : (⟨S40, .f32⟩ : BufTy).Contents (Elt F) → (⟨S1x40, .f32⟩ : BufTy).Contents (Elt F)),
    unary main_v40 main_v41 (broadcastInDim S100000x40 ![0, 1] bcast_S1x40_S100000x40_0_1 : (⟨S1x40, .f32⟩ : BufTy).Contents (Elt F) → (⟨S100000x40, .f32⟩ : BufTy).Contents (Elt F)),
    binary main_v39 main_v41 main_v42 (addf : (⟨S100000x40, .f32⟩ : BufTy).Contents (Elt F) → (⟨S100000x40, .f32⟩ : BufTy).Contents (Elt F) → (⟨S100000x40, .f32⟩ : BufTy).Contents (Elt F)) ]
/-- Each row's largest logit. -/
abbrev c6b : List (HloOp τ sig (Elt F)) :=
  [ TRef.nullary (TRef.of (T := ⟨S_, .f32⟩) main_call1_cst) (constant S_ .f32 0xFF800000#32),
    TRef.binary (TRef.of (T := ⟨S100000x40, .f32⟩) main_v42) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]
/-- The logits less their row's largest. -/
abbrev c6c : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v42) (TRef.of (T := ⟨S100000x40, .f32⟩) main_call1_v4) (TRef.of (T := ⟨S100000x40, .f32⟩) main_call1_v5) subf ]
/-- The shifted logits less the logarithm of their row's sum of exponentials. -/
abbrev c6d : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v43) subf ]

end Chunks

/-- The program's operations are the six stretches in order. -/
theorem ops_split : (Cert.ReferenceIdeal.ValueP.ops (F := Ideal)) = c1 (F := Ideal) ++ (c2 ++ (c3 ++ (c4 ++ (c5 ++ (c6a ++ (c6b ++ (c6c ++ c6d))))))) := rfl

/-- No operation of the stretch writes the named buffer, so the stretch leaves it as it was. -/
macro "keep_tac" : tactic =>
  `(tactic| (refine StableHlo.after_of_forall_not_mem _ _ (List.forall_iff_forall_mem.mp ?_)
             simp only [List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

section Stretches

variable (W : Valuation τ sig (Elt Ideal))

/-! ## What each stretch leaves in its last buffer -/

theorem res_c1 : after (c1 (F := Ideal)) W (Proc.devRef .tc main_v0) = dense1 (W (Proc.devRef .tc main_arg0)) (W (Proc.devRef .tc main_arg3)) := by
  after_results_simp <;> (try simp only [ofBuf_toBuf]) <;> rfl
theorem res_c2 : after (c2 (F := Ideal)) W (Proc.devRef .tc main_v17) = prop128 (W (Proc.devRef .tc main_v0)) (W (Proc.devRef .tc main_arg1)) (W (Proc.devRef .tc main_arg2)) := by
  after_results_simp <;> (try simp only [ofBuf_toBuf]) <;> rfl
theorem res_c3 : after (c3 (F := Ideal)) W (Proc.devRef .tc main_v21) = act1 (W (Proc.devRef .tc main_v17)) (W (Proc.devRef .tc main_arg4)) := by
  after_results_simp <;> (try simp only [ofBuf_toBuf]) <;> rfl
theorem res_c4 : after (c4 (F := Ideal)) W (Proc.devRef .tc main_v22) = dense2 (W (Proc.devRef .tc main_v21)) (W (Proc.devRef .tc main_arg5)) := by
  after_results_simp <;> (try simp only [ofBuf_toBuf]) <;> rfl
theorem res_c5 : after (c5 (F := Ideal)) W (Proc.devRef .tc main_v39) = prop40 (W (Proc.devRef .tc main_v22)) (W (Proc.devRef .tc main_arg1)) (W (Proc.devRef .tc main_arg2)) := by
  after_results_simp <;> (try simp only [ofBuf_toBuf]) <;> rfl
theorem res_c6a : after (c6a (F := Ideal)) W (Proc.devRef .tc main_v42) = biased (W (Proc.devRef .tc main_v39)) (W (Proc.devRef .tc main_arg6)) := by
  after_results_simp <;> (try simp only [ofBuf_toBuf]) <;> rfl
theorem res_c6b : after (c6b (F := Ideal)) W (Proc.devRef .tc main_call1_v2) = rowMax (W (Proc.devRef .tc main_v42)) := by
  after_results_simp <;> (try simp only [ofBuf_toBuf]) <;> rfl
theorem keep_c6b_v42 : after (c6b (F := Ideal)) W (Proc.devRef .tc main_v42) = W (Proc.devRef .tc main_v42) := by keep_tac
theorem res_c6c : after (c6c (F := Ideal)) W (Proc.devRef .tc main_call1_v5)
    = subf (F := Ideal) (φ := .f32) (W (Proc.devRef .tc main_v42)) (broadcastInDim S100000x40 ![0, 1] bcast_S100000x1_S100000x40_0_1 (broadcastInDim S100000x1 ![0] bcast_S100000_S100000x1_0 (W (Proc.devRef .tc main_call1_v2)))) := by
  after_results_simp <;> (try simp only [ofBuf_toBuf]) <;> rfl
theorem res_c6d : after (c6d (F := Ideal)) W (Proc.devRef .tc main_v43)
    = subf (F := Ideal) (φ := .f32) (W (Proc.devRef .tc main_call1_v5)) (broadcastInDim S100000x40 ![0, 1] bcast_S100000x1_S100000x40_0_1 (Host.log (F := Ideal) (broadcastInDim S100000x1 ![0] bcast_S100000_S100000x1_0 (Host.reduceAdd (F := Ideal) (Host.exp (F := Ideal) (W (Proc.devRef .tc main_call1_v5))) (constant (F := Ideal) S_ .f32 0x00000000#32) reducesTo_S100000x40_S100000_d1 h_S_)))) := by
  after_results_simp <;> (try simp only [ofBuf_toBuf]) <;> rfl

/-! ## What each stretch leaves alone -/

theorem keep_c1_arg1 : after (c1 (F := Ideal)) W (Proc.devRef .tc main_arg1) = W (Proc.devRef .tc main_arg1) := by keep_tac
theorem keep_c1_arg2 : after (c1 (F := Ideal)) W (Proc.devRef .tc main_arg2) = W (Proc.devRef .tc main_arg2) := by keep_tac
theorem keep_c1_arg4 : after (c1 (F := Ideal)) W (Proc.devRef .tc main_arg4) = W (Proc.devRef .tc main_arg4) := by keep_tac
theorem keep_c1_arg5 : after (c1 (F := Ideal)) W (Proc.devRef .tc main_arg5) = W (Proc.devRef .tc main_arg5) := by keep_tac
theorem keep_c1_arg6 : after (c1 (F := Ideal)) W (Proc.devRef .tc main_arg6) = W (Proc.devRef .tc main_arg6) := by keep_tac
theorem keep_c2_arg1 : after (c2 (F := Ideal)) W (Proc.devRef .tc main_arg1) = W (Proc.devRef .tc main_arg1) := by keep_tac
theorem keep_c2_arg2 : after (c2 (F := Ideal)) W (Proc.devRef .tc main_arg2) = W (Proc.devRef .tc main_arg2) := by keep_tac
theorem keep_c2_arg4 : after (c2 (F := Ideal)) W (Proc.devRef .tc main_arg4) = W (Proc.devRef .tc main_arg4) := by keep_tac
theorem keep_c2_arg5 : after (c2 (F := Ideal)) W (Proc.devRef .tc main_arg5) = W (Proc.devRef .tc main_arg5) := by keep_tac
theorem keep_c2_arg6 : after (c2 (F := Ideal)) W (Proc.devRef .tc main_arg6) = W (Proc.devRef .tc main_arg6) := by keep_tac
theorem keep_c3_arg1 : after (c3 (F := Ideal)) W (Proc.devRef .tc main_arg1) = W (Proc.devRef .tc main_arg1) := by keep_tac
theorem keep_c3_arg2 : after (c3 (F := Ideal)) W (Proc.devRef .tc main_arg2) = W (Proc.devRef .tc main_arg2) := by keep_tac
theorem keep_c3_arg5 : after (c3 (F := Ideal)) W (Proc.devRef .tc main_arg5) = W (Proc.devRef .tc main_arg5) := by keep_tac
theorem keep_c3_arg6 : after (c3 (F := Ideal)) W (Proc.devRef .tc main_arg6) = W (Proc.devRef .tc main_arg6) := by keep_tac
theorem keep_c4_arg1 : after (c4 (F := Ideal)) W (Proc.devRef .tc main_arg1) = W (Proc.devRef .tc main_arg1) := by keep_tac
theorem keep_c4_arg2 : after (c4 (F := Ideal)) W (Proc.devRef .tc main_arg2) = W (Proc.devRef .tc main_arg2) := by keep_tac
theorem keep_c4_arg6 : after (c4 (F := Ideal)) W (Proc.devRef .tc main_arg6) = W (Proc.devRef .tc main_arg6) := by keep_tac
theorem keep_c5_arg6 : after (c5 (F := Ideal)) W (Proc.devRef .tc main_arg6) = W (Proc.devRef .tc main_arg6) := by keep_tac

end Stretches

/-! ## The whole line -/

/-- From any contents, the result buffer ends at the composition of the six stages of the arguments' contents. -/
theorem result (V : Valuation τ sig (Elt Ideal)) :
    after (Cert.ReferenceIdeal.ValueP.ops (F := Ideal)) V (Proc.devRef .tc main_v43)
      = whole (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_split, after_append, after_append, after_append, after_append, after_append, after_append, after_append, after_append,
    res_c6d, res_c6c, res_c6b, keep_c6b_v42, res_c6a, res_c5, res_c4, res_c3, res_c2, res_c1,
    keep_c5_arg6, keep_c4_arg6, keep_c3_arg6, keep_c2_arg6, keep_c1_arg6,
    keep_c4_arg1, keep_c3_arg1, keep_c2_arg1, keep_c1_arg1,
    keep_c4_arg2, keep_c3_arg2, keep_c2_arg2, keep_c1_arg2,
    keep_c3_arg5, keep_c2_arg5, keep_c1_arg5,
    keep_c2_arg4, keep_c1_arg4]
  rfl

/-- On every device, from any memory with zero counters: every weakly fair execution of the reference terminates with
    the result at the six stages composed over the arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = whole (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v43).trans (result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefRun

end
-- ==== Proof.lean ====
/-
  A two-layer graph convolution, kernel against reference, over the extended reals.

  Both programs compute, from node features x, weighted edges (src, dst, ew) and parameters W1, b1, W2, b2,
      h1 = relu (P (x · W1) + b1),     out = log_softmax (P (h1 · W2) + b2),
  P the propagation along the edges (gather the source rows, scale by the edge weight, add into the target rows).
  The reference does every step as a host operation on whole arrays. The kernel does the two dense layers, the
  bias-and-relu and the bias-and-log_softmax as four regions of 20 row blocks of 5000 rows each, and P as the
  reference's own host operations between them.

  At the ideal instance rounding to the 16-bit format is the identity, a matrix product into a zero accumulator and
  the host's dot_general are the same sums, and each of the four regions touches a row only through that row; so
  each region's result array is the reference's stage applied to the arrays the region was entered with
  (Proof/Reg0 … Reg3, over the entry-by-entry reads of Proof/Pay and Proof/RefStages). Folding the six segments of
  the kernel's program (Proof/KRun, Proof/KValue) and the six stretches of the reference (Proof/RefRun) gives both
  results as ONE term, `Stage.whole` of the arguments: `algebraic`. No law of arithmetic is used beyond
  max (-∞) y = y for a fold that starts at -∞ and 0 + s = s, so the precondition is never opened. The frames of the
  two kernel programs are the generated ones, the reference's frame is its run with the result dropped, and the ideal
  pass rewrote nothing, so `preserves` is trivial.
-/
import proofs.«155495_j11278584119813_1_alg».proof.Defs
import proofs.«155495_j11278584119813_1_alg».proof.Proof.Gen.Kernel
import proofs.«155495_j11278584119813_1_alg».proof.Proof.Gen.Kernel.Frame
import proofs.«155495_j11278584119813_1_alg».proof.Proof.Gen.KernelIdeal
import proofs.«155495_j11278584119813_1_alg».proof.Proof.Gen.KernelIdeal.Frame
import proofs.«155495_j11278584119813_1_alg».proof.Proof.Gen.ReferenceIdeal
import proofs.«155495_j11278584119813_1_alg».proof.Proof.Gen.Pre_finite_inputs
import proofs.«155495_j11278584119813_1_alg».proof.Proof.KRun
import proofs.«155495_j11278584119813_1_alg».proof.Proof.KValue
import proofs.«155495_j11278584119813_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- From memories that agree on the arguments both programs end with the six stages composed over those arguments. -/
theorem algebraic : Cert.algebraic_KernelIdeal_ReferenceIdeal := by
  intro m ρ m' ρ' _ hagree
  refine ⟨fun c => Cert.ReferenceIdeal.Stage.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.KValue.result m ρ c), (h c).2⟩)
      (Cert.KernelIdeal.KRun.run_named m ρ)
  · refine (θ_run Cert.ReferenceIdeal.defs _ _).mono (fun r h c => ⟨(h c).1.trans ?_, (h c).2⟩) (Cert.ReferenceIdeal.RefRun.run m' ρ')
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
